-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x512 : Shape := ⟨2, ![400000, 512]⟩
abbrev S25000x512 : Shape := ⟨2, ![25000, 512]⟩
abbrev S400000 : Shape := ⟨1, ![400000]⟩
abbrev S1024x512 : Shape := ⟨2, ![1024, 512]⟩
abbrev S512 : Shape := ⟨1, ![512]⟩
abbrev S512x512 : Shape := ⟨2, ![512, 512]⟩
abbrev S_ : Shape := ⟨0, ![]⟩

class Facts : Prop where
  bcast_S_S400000x512 : S_.BroadcastsInDim S400000x512 (![] : Fin 0 → Fin S400000x512.rank)
  reducesTo_S400000x512_S_d0_1 : S400000x512.ReducesTo [0, 1] S_
  h_S_ : 0 < S_.numel
  bcast_S_S25000x512 : S_.BroadcastsInDim S25000x512 (![] : Fin 0 → Fin S25000x512.rank)
  reducesTo_S25000x512_S_d0_1 : S25000x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S512x512 .f32) (main_arg6 : FVec F S512 .f32) (main_arg7 : FVec F S512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_v33

def fn {F : FTy → Type} [FloatOps F] (main_arg0 : FVec F S400000x512 .f32) (main_arg1 : FVec F S25000x512 .f32) (main_arg2 : IVec S400000 32) (main_arg3 : FVec F S1024x512 .f32) (main_arg4 : FVec F S512 .f32) (main_arg5 : FVec F S512x512 .f32) (main_arg6 : FVec F S512 .f32) (main_arg7 : FVec F S512 .f32) (main_arg8 : FVec F S512 .f32) : IVec S_ 1 :=
  let main_v0 : FVec F S400000x512 .f32 := Host.absf main_arg0
  let main_cst : FVec F S_ .f32 := constant S_ .f32 0x7F800000#32
  let main_v1 : FVec F S400000x512 .f32 := broadcastInDim S400000x512 ![] bcast_S_S400000x512 main_cst
  let main_v2 : IVec S400000x512 1 := cmpf .olt main_v0 main_v1
  let main_c : IVec S_ 1 := constantI S_ 1 1#1
  let main_v3 : IVec S_ 1 := (fun x v => Host.reduce IntOp.andi x v reducesTo_S400000x512_S_d0_1 h_S_) main_v2 main_c
  let main_v4 : FVec F S25000x512 .f32 := Host.absf main_arg1
  let main_cst_0 : FVec F S_ .f32 := constant S_ .f32 0x7F800000#32
  let main_v5 : FVec F S25000x512 .f32 := broadcastInDim S25000x512 ![] bcast_S_S25000x512 main_cst_0
  let main_v6 : IVec S25000x512 1 := cmpf .olt main_v4 main_v5
  let main_c_1 : IVec S_ 1 := constantI S_ 1 1#1
  let main_v7 : IVec S_ 1 := (fun x v => Host.reduce IntOp.andi x v reducesTo_S25000x512_S_d0_1 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S400000x512 : Shape := ⟨2, ![400000, 512]⟩
abbrev S25000x512 : Shape := ⟨2, ![25000, 512]⟩
abbrev S400000 : Shape := ⟨1, ![400000]⟩
abbrev S1024x512 : Shape := ⟨2, ![1024, 512]⟩
abbrev S512 : Shape := ⟨1, ![512]⟩
abbrev S512x512 : Shape := ⟨2, ![512, 512]⟩
abbrev S_ : Shape := ⟨0, ![]⟩
abbrev S400000x1 : Shape := ⟨2, ![400000, 1]⟩
abbrev S1x512 : Shape := ⟨2, ![1, 512]⟩
abbrev S1000x512 : Shape := ⟨2, ![1000, 512]⟩
abbrev S1000 : Shape := ⟨1, ![1000]⟩
abbrev S1000x1 : Shape := ⟨2, ![1000, 1]⟩

abbrev nBuf : Space → Nat
  | .hbm => 23
  | .vmem => 13
  | .smem => 0
  | _ => 0

abbrev bufTy : (tb : Table) → Fin (tcTables nBuf tb) → BufTy
  | .hbm, ⟨0, _⟩ => ⟨S400000x512, .f32⟩
  | .hbm, ⟨1, _⟩ => ⟨S25000x512, .f32⟩
  | .hbm, ⟨2, _⟩ => ⟨S400000, .i32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S25000x512, .f32⟩
  | .hbm, ⟨11, _⟩ => ⟨S400000x1, .i32⟩
  | .hbm, ⟨12, _⟩ => ⟨S25000x512, .f32⟩
  | .hbm, ⟨13, _⟩ => ⟨S512x512, .f32⟩
  | .hbm, ⟨14, _⟩ => ⟨S512x512, .bf16⟩
  | .hbm, ⟨15, _⟩ => ⟨S512x512, .f32⟩
  | .hbm, ⟨16, _⟩ => ⟨S512x512, .bf16⟩
  | .hbm, ⟨17, _⟩ => ⟨S512x512, .bf16⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S25000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1000x512, .f32⟩
  | .local _ .vmem, ⟨12, _⟩ => ⟨S1000x512, .f32⟩
  | _, _ => ⟨S400000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S25000x512 : S_.BroadcastsInDim S25000x512 (![] : Fin 0 → Fin S25000x512.rank)
  bcast_S400000_S400000x1_0 : S400000.BroadcastsInDim S400000x1 (![0] : Fin 1 → Fin S400000x1.rank)
  slices_S1024x512_S512x512_0_0 : S1024x512.Slices ![0, 0] S512x512
  bitsLt_bf16_f32 : FTy.bits .bf16 < FTy.bits .f32
  slices_S1024x512_S512x512_512_0 : S1024x512.Slices ![512, 0] S512x512
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  scatter_S25000x512_S400000x1_S400000x512_1_0_0_1_wf : ScatterDims.WF S25000x512 S400000x1 S400000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S25000x512.size a
  hwx0_0 : ∀ i : grid0.Coords, EltTy.bits .f32 = 32 ∨ (Rect.block (s := S25000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S25000x512.size a
  hwx0_1 : ∀ i : grid0.Coords, EltTy.bits .f32 = 32 ∨ (Rect.block (s := S25000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x512.size a ≤ S25000x512.size a
  hwx0_9 : ∀ i : grid0.Coords, EltTy.bits .f32 = 32 ∨ (Rect.block (s := S25000x512) S1000x512.size (cc0_transform_9 i) (hinb0_9 i)).WholeWords (EltTy.packing .f32)

variable [Facts₀]

def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v2) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1000x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S400000x512 : Shape := ⟨2, ![400000, 512]⟩
abbrev S25000x512 : Shape := ⟨2, ![25000, 512]⟩
abbrev S400000 : Shape := ⟨1, ![400000]⟩
abbrev S1024x512 : Shape := ⟨2, ![1024, 512]⟩
abbrev S512 : Shape := ⟨1, ![512]⟩
abbrev S512x512 : Shape := ⟨2, ![512, 512]⟩
abbrev S_ : Shape := ⟨0, ![]⟩
abbrev S400000x1 : Shape := ⟨2, ![400000, 1]⟩
abbrev S25000x1024 : Shape := ⟨2, ![25000, 1024]⟩
abbrev S1x512 : Shape := ⟨2, ![1, 512]⟩
abbrev S25000 : Shape := ⟨1, ![25000]⟩
abbrev S25000x1 : Shape := ⟨2, ![25000, 1]⟩

abbrev nBuf : Space → Nat
  | .hbm => 59
  | .vmem => 0
  | .smem => 0
  | _ => 0

abbrev bufTy : (tb : Table) → Fin (tcTables nBuf tb) → BufTy
  | .hbm, ⟨0, _⟩ => ⟨S400000x512, .f32⟩
  | .hbm, ⟨1, _⟩ => ⟨S25000x512, .f32⟩
  | .hbm, ⟨2, _⟩ => ⟨S400000, .i32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S25000x512, .f32⟩
  | .hbm, ⟨11, _⟩ => ⟨S400000x1, .i32⟩
  | .hbm, ⟨12, _⟩ => ⟨S25000x512, .f32⟩
  | .hbm, ⟨13, _⟩ => ⟨S25000x1024, .f32⟩
  | .hbm, ⟨14, _⟩ => ⟨S25000x512, .f32⟩
  | .hbm, ⟨15, _⟩ => ⟨S1x512, .f32⟩
  | .hbm, ⟨16, _⟩ => ⟨S25000x512, .f32⟩
  | .hbm, ⟨17, _⟩ => ⟨S25000x512, .f32⟩
  | .hbm, ⟨18, _⟩ => ⟨S25000x512, .f32⟩
  | .hbm, ⟨19, _⟩ => ⟨S25000x512, .f32⟩
  | .hbm, ⟨20, _⟩ => ⟨S_, .f32⟩
  | .hbm, ⟨21, _⟩ => ⟨S25000x512, .f32⟩
  | .hbm, ⟨22, _⟩ => ⟨S25000x512, .f32⟩
  | .hbm, ⟨23, _⟩ => ⟨S_, .f32⟩
  | .hbm, ⟨24, _⟩ => ⟨S25000x512, .f32⟩
  | .hbm, ⟨25, _⟩ => ⟨S25000x512, .f32⟩
  | .hbm, ⟨26, _⟩ => ⟨S25000x512, .f32⟩
  | .hbm, ⟨27, _⟩ => ⟨S25000x512, .f32⟩
  | .hbm, ⟨28, _⟩ => ⟨S1x512, .f32⟩
  | .hbm, ⟨29, _⟩ => ⟨S25000x512, .f32⟩
  | .hbm, ⟨30, _⟩ => ⟨S25000x512, .f32⟩
  | .hbm, ⟨31, _⟩ => ⟨S_, .f32⟩
  | .hbm, ⟨32, _⟩ => ⟨S25000, .f32⟩
  | .hbm, ⟨33, _⟩ => ⟨S25000x1, .f32⟩
  | .hbm, ⟨34, _⟩ => ⟨S_, .f32⟩
  | .hbm, ⟨35, _⟩ => ⟨S25000x1, .f32⟩
  | .hbm, ⟨36, _⟩ => ⟨S25000x1, .f32⟩
  | .hbm, ⟨37, _⟩ => ⟨S25000x512, .f32⟩
  | .hbm, ⟨38, _⟩ => ⟨S25000x512, .f32⟩
  | .hbm, ⟨39, _⟩ => ⟨S25000x512, .f32⟩
  | .hbm, ⟨40, _⟩ => ⟨S_, .f32⟩
  | .hbm, ⟨41, _⟩ => ⟨S25000, .f32⟩
  | .hbm, ⟨42, _⟩ => ⟨S25000x1, .f32⟩
  | .hbm, ⟨43, _⟩ => ⟨S_, .f32⟩
  | .hbm, ⟨44, _⟩ => ⟨S25000x1, .f32⟩
  | .hbm, ⟨45, _⟩ => ⟨S25000x1, .f32⟩
  | .hbm, ⟨46, _⟩ => ⟨S_, .f32⟩
  | .hbm, ⟨47, _⟩ => ⟨S25000x1, .f32⟩
  | .hbm, ⟨48, _⟩ => ⟨S25000x1, .f32⟩
  | .hbm, ⟨49, _⟩ => ⟨S25000x1, .f32⟩
  | .hbm, ⟨50, _⟩ => ⟨S25000x512, .f32⟩
  | .hbm, ⟨51, _⟩ => ⟨S25000x512, .f32⟩
  | .hbm, ⟨52, _⟩ => ⟨S1x512, .f32⟩
  | .hbm, ⟨53, _⟩ => ⟨S25000x512, .f32⟩
  | .hbm, ⟨54, _⟩ => ⟨S25000x512, .f32⟩
  | .hbm, ⟨55, _⟩ => ⟨S1x512, .f32⟩
  | .hbm, ⟨56, _⟩ => ⟨S25000x512, .f32⟩
  | .hbm, ⟨57, _⟩ => ⟨S25000x512, .f32⟩
  | .hbm, ⟨58, _⟩ => ⟨S25000x512, .f32⟩
  | _, _ => ⟨S400000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]

class Facts₀ : Prop where
  bcast_S_S25000x512 : S_.BroadcastsInDim S25000x512 (![] : Fin 0 → Fin S25000x512.rank)
  bcast_S400000_S400000x1_0 : S400000.BroadcastsInDim S400000x1 (![0] : Fin 1 → Fin S400000x1.rank)
  concatenates_S25000x512_S25000x512_S25000x1024_d1 : Shape.Concatenates [S25000x512, S25000x512] S25000x1024 1
  bcast_S512_S1x512_1 : S512.BroadcastsInDim S1x512 (![1] : Fin 1 → Fin S1x512.rank)
  bcast_S1x512_S25000x512_0_1 : S1x512.BroadcastsInDim S25000x512 (![0, 1] : Fin 2 → Fin S25000x512.rank)
  reducesTo_S25000x512_S25000_d1 : S25000x512.ReducesTo [1] S25000
  h_S_ : 0 < S_.numel
  bcast_S25000_S25000x1_0 : S25000.BroadcastsInDim S25000x1 (![0] : Fin 1 → Fin S25000x1.rank)
  bcast_S_S25000x1 : S_.BroadcastsInDim S25000x1 (![] : Fin 0 → Fin S25000x1.rank)
  bcast_S25000x1_S25000x512_0_1 : S25000x1.BroadcastsInDim S25000x512 (![0, 1] : Fin 2 → Fin S25000x512.rank)
  scatter_S25000x512_S400000x1_S400000x512_1_0_0_1_wf : ScatterDims.WF S25000x512 S400000x1 S400000x512 [1] [0] [0] 1
  dot_S25000x1024_S1024x512_S25000x512_1_0_0_1_n_n_wf : DotDims.WF S25000x1024 S1024x512 S25000x512 [1] [0] [0] [1] [] []
  dot_S25000x512_S512x512_S25000x512_1_0_0_1_n_n_wf : DotDims.WF S25000x512 S512x512 S25000x512 [1] [0] [0] [1] [] []

variable [Facts₀]

def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def dot_S25000x1024_S1024x512_S25000x512_1_0_0_1_n_n : DotDims S25000x1024 S1024x512 S25000x512 where
  lhsContracting := [1]
  rhsContracting := [0]
  lhsNonContracting := [0]
  rhsNonContracting := [1]
  lhsBatch := []
  rhsBatch := []
  wf := dot_S25000x1024_S1024x512_S25000x512_1_0_0_1_n_n_wf
def dot_S25000x512_S512x512_S25000x512_1_0_0_1_n_n : DotDims S25000x512 S512x512 S25000x512 where
  lhsContracting := [1]
  rhsContracting := [0]
  lhsNonContracting := [0]
  rhsNonContracting := [1]
  lhsBatch := []
  rhsBatch := []
  wf := dot_S25000x512_S512x512_S25000x512_1_0_0_1_n_n_wf

class Facts : Prop extends Facts₀ where

variable [Facts]
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowOps.lean ====
/-
  Rows of a matrix read at an index, for any number of rows `R` and any width `W`.

  A sum along the rows of an `[R, W]` array — the vector unit's lane reduction with a zero accumulator, or the
  host's reduce from an initial value — is, at row `r`, the sum over `k : Fin W` of the entries `(r, k)`
  (the host's: the initial value plus that sum). A vector `[R]` broadcast to a column `[R, 1]` reads its entry
  `r`, and a column `[R, 1]` broadcast along its unit axis to `[R, W]` reads its entry `(r, 0)`. All are stated at
  indices built from literal coordinates, so they rewrite a payload whatever the width.
-/
import Idealize.ShloMosaic.PureOps.Ideal.Laws
import Idealize.ShloMosaic.Lib.Pipeline.Value
import Idealize.ShloMosaic.Lib.ValueIdx
import Idealize.ShloMosaic.Lib.IdealHost

namespace Cert.RowOps

open Idealize.ShloMosaic Idealize.ShloMosaic.ValueIdx
open scoped BigOperators

variable {R W : ℕ} {α : Type}

/-- Over row `r`, the index with column `k` inserted is `(r, k)`. -/
theorem lift_row (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- A lane sum with the zero accumulator, at row `r`: the sum of the row's entries. -/
theorem rowSumK (src : FVec Ideal ⟨2, ![R, W]⟩ .f32) (h : (⟨2, ![R, W]⟩ : Shape).Reduces [1] ⟨1, ![R]⟩)
    (hφ : FKind.Formats .f32) (hacc : (0x00000000#32 : BitVec 32) = 0x00000000#32) (r : Fin R) :
    multiReduction .add [1] ⟨1, ![R]⟩ src 0x00000000#32 h hφ hacc (ix1 r) = ∑ k : Fin W, src (ix2 r k) := by
  refine (Ideal.multiReduction_add_single src _ h hφ hacc (ix1 r)).trans ?_
  exact Finset.sum_congr rfl fun k _ => congrArg src (lift_row h r k)

/-- The host's sum along the rows from an initial value, at row `r`: that value plus the sum of the row's entries. -/
theorem rowSumH {u : Shape} (x : FVec Ideal ⟨2, ![R, W]⟩ .f32) (init : u.Idx → Ideal .f32)
    (h : (⟨2, ![R, W]⟩ : Shape).ReducesTo [1] ⟨1, ![R]⟩) (hu : 0 < u.numel) (r : Fin R) :
    Host.reduceAdd x init h hu (ix1 r) = init (Shape.Idx.first hu) + ∑ k : Fin W, x (ix2 r k) := by
  have h' : (⟨2, ![R, W]⟩ : Shape).Reduces [1] ⟨1, ![R]⟩ := h.elim fun e hb => ⟨e, Nat.one_pos, hb⟩
  refine (hostReduceAdd_apply x init h hu (ix1 r)).trans ?_
  refine (Ideal.hostReduceAdd_single h h' x _ (ix1 r)).trans ?_
  exact congrArg _ (Finset.sum_congr rfl fun k _ => congrArg x (lift_row h' r k))

/-- A vector `[R]` broadcast to a column `[R, 1]` reads, at `(r, u)`, its entry `r`. -/
theorem bcastCol (v : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ (![0] : Fin 1 → Fin 2) h v (ix2 r u) = v (ix1 r) := by
  refine broadcastInDim_apply _ h v (ix2 r u) (ix1 r) fun a => ?_
  match a with
  | ⟨0, _⟩ =>
    show r.val = if R = 1 then 0 else r.val
    split
    · have := r.isLt; omega
    · rfl

/-- A column `[R, 1]` broadcast to `[R, W]` reads, at `(r, k)`, its entry `(r, 0)`. -/
theorem bcastRows (v : (⟨2, ![R, 1]⟩ : Shape).Idx → α)
    (h : (⟨2, ![R, 1]⟩ : Shape).BroadcastsInDim ⟨2, ![R, W]⟩ (![0, 1] : Fin 2 → Fin 2)) (r : Fin R) (k : Fin W) :
    broadcastInDim ⟨2, ![R, W]⟩ (![0, 1] : Fin 2 → Fin 2) h v (ix2 r k) = v (ix2 r (0 : Fin 1)) := by
  refine broadcastInDim_apply _ h v (ix2 r k) (ix2 r (0 : Fin 1)) fun a => ?_
  match a with
  | ⟨0, _⟩ =>
    show r.val = if R = 1 then 0 else r.val
    split
    · have := r.isLt; omega
    · rfl
  | ⟨1, _⟩ => rfl

end Cert.RowOps
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibSumSplit.lean ====
/-
  A finite sum over `Fin n` cut at a position.

  In any commutative additive monoid, the sum of `f` over `Fin n` with `n = a + b` is the sum over the first `a`
  positions plus the sum over the last `b` positions, the latter read at `a + x`. No subtraction or cancellation is used,
  so the law holds on the extended reals as it stands. Cutting twice or three times gives the three- and four-part forms.
-/
import Mathlib.Algebra.BigOperators.Fin

namespace Cert.LibSumSplit

/-- A sum over `Fin n`, `n = a + b`, is the sum over the first `a` positions plus the sum over the last `b`. -/
theorem sum_cut {M : Type*} [AddCommMonoid M] (a b n : ℕ) (h : a + b = n) (f : Fin n → M) :
    ∑ k : Fin n, f k
      = (∑ x : Fin a, f ⟨x.val, by have := x.isLt; omega⟩) + ∑ x : Fin b, f ⟨a + x.val, by have := x.isLt; omega⟩ := by
  subst h
  rw [Fin.sum_univ_add]
  rfl

/-- Three consecutive parts of extents `a`, `b`, `c`. -/
theorem sum_cut3 {M : Type*} [AddCommMonoid M] (a b c n : ℕ) (h : a + b + c = n) (f : Fin n → M) :
    ∑ k : Fin n, f k
      = ((∑ x : Fin a, f ⟨x.val, by have := x.isLt; omega⟩) + ∑ x : Fin b, f ⟨a + x.val, by have := x.isLt; omega⟩)
        + ∑ x : Fin c, f ⟨a + b + x.val, by have := x.isLt; omega⟩ := by
  rw [sum_cut (a + b) c n h f, sum_cut a b (a + b) rfl (fun k => f ⟨k.val, by have := k.isLt; omega⟩)]

/-- Four consecutive parts of extents `a`, `b`, `c`, `d`. -/
theorem sum_cut4 {M : Type*} [AddCommMonoid M] (a b c d n : ℕ) (h : a + b + c + d = n) (f : Fin n → M) :
    ∑ k : Fin n, f k
      = (((∑ x : Fin a, f ⟨x.val, by have := x.isLt; omega⟩) + ∑ x : Fin b, f ⟨a + x.val, by have := x.isLt; omega⟩)
        + ∑ x : Fin c, f ⟨a + b + x.val, by have := x.isLt; omega⟩)
        + ∑ x : Fin d, f ⟨a + b + c + x.val, by have := x.isLt; omega⟩ := by
  rw [sum_cut (a + b + c) d n h f,
    sum_cut3 a b c (a + b + c) rfl (fun k => f ⟨k.val, by have := k.isLt; omega⟩)]

end Cert.LibSumSplit
-- ==== Proof.RowMath.lean ====
/-
  One node's update, as a function of that node's two feature rows and the weights, on the extended reals.

  A node carries an aggregated edge-feature row `a` and its own feature row `n`, each of width 512. The update is

    h  = a · Wa + n · Wb + b1            (the first linear layer, its weight matrix given as its upper and lower halves)
    s  = h · logistic h                  (the gate)
    y  = s · W2 + b2                     (the second linear layer)
    out = (y − mean y) · rsqrt (mean ((y − mean y)²) + ε) · γ + β + n     (layer normalisation, then the residual)

  with `mean y = (Σ y) / 512`. Nothing here mentions a program: every sum is a sum over `Fin 512`, every operation the
  exact one on `[-∞, +∞]`. One law is recorded: a sum over `Fin 1024` is the sum over its first 512 positions plus the
  sum over its last 512 — the step between one contraction over a joined row `[a | n]` against the whole 1024-row
  weight matrix and the two contractions against its halves. It uses commutativity and associativity of addition only,
  so it holds at the infinities as it stands.
-/
import Idealize.ShloMosaic.PureOps.Ideal
import Idealize.ShloMosaic.PureOps.Ideal.Laws
import proofs.«100990_j57071525429418_1_alg».proof.Proof.LibSumSplit

noncomputable section

namespace Cert.NodeUpdate

open Idealize.ShloMosaic

/-- The width of a row as the programs spell it: the pattern of `512.0`. -/
def width : EReal := Ideal.ofBits .f32 0x44000000#32

/-- The variance offset as the programs spell it: the pattern nearest `1e-5`, the same word on both sides. -/
def eps : EReal := Ideal.ofBits .f32 0x3727C5AC#32

/-- The first layer at column `c`: the two half contractions and the bias. -/
def hidden (a n : Fin 512 → EReal) (wa wb : Fin 512 → Fin 512 → EReal) (b1 : Fin 512 → EReal) (c : Fin 512) : EReal :=
  ((∑ k : Fin 512, a k * wa k c) + ∑ k : Fin 512, n k * wb k c) + b1 c

/-- The gate `h · logistic h`. -/
def gate (h : EReal) : EReal := h * Ideal.logistic h

/-- A linear layer at column `c`. -/
def linear (s : Fin 512 → EReal) (w : Fin 512 → Fin 512 → EReal) (b : Fin 512 → EReal) (c : Fin 512) : EReal :=
  (∑ k : Fin 512, s k * w k c) + b c

/-- The mean of a row: its sum divided by the width. -/
def mean (y : Fin 512 → EReal) : EReal := Ideal.div (∑ k : Fin 512, y k) width

/-- A row with its mean taken off. -/
def centred (y : Fin 512 → EReal) (c : Fin 512) : EReal := y c - mean y

/-- Layer normalisation of a row, scaled by `g` and shifted by `bt`. -/
def normed (y g bt : Fin 512 → EReal) (c : Fin 512) : EReal :=
  centred y c * Ideal.rsqrt (mean (fun k => centred y k * centred y k) + eps) * g c + bt c

/-- The second layer's row from the two feature rows. -/
def secondRow (a n : Fin 512 → EReal) (wa wb : Fin 512 → Fin 512 → EReal) (b1 : Fin 512 → EReal)
    (w2 : Fin 512 → Fin 512 → EReal) (b2 : Fin 512 → EReal) : Fin 512 → EReal :=
  linear (fun k => gate (hidden a n wa wb b1 k)) w2 b2

/-- The updated node row. -/
def rowOut (a n : Fin 512 → EReal) (wa wb : Fin 512 → Fin 512 → EReal) (b1 : Fin 512 → EReal)
    (w2 : Fin 512 → Fin 512 → EReal) (b2 g bt : Fin 512 → EReal) (c : Fin 512) : EReal :=
  normed (secondRow a n wa wb b1 w2 b2) g bt c + n c

/-- A sum over 1024 positions is the sum over the first 512 plus the sum over the last 512. -/
theorem sum_halves (f : Fin 1024 → EReal) :
    ∑ k : Fin 1024, f k
      = (∑ k : Fin 512, f ⟨k.val, by have := k.isLt; omega⟩) + ∑ k : Fin 512, f ⟨512 + k.val, by have := k.isLt; omega⟩ :=
  Cert.LibSumSplit.sum_cut 512 512 1024 rfl f

end Cert.NodeUpdate

end
-- ==== Proof.BlockFn.lean ====
/-
  The node update applied to every row of a block of rows.

  A block of `R` nodes is two `[R, 512]` arrays (the aggregated edge features and the node features); the weights are
  `[512, 512]` matrices and the biases, scale and shift are one-row `[1, 512]` arrays, as the kernel holds them.
  `blockFn` is the `[R, 512]` array whose row `p` is the update (`rowOut`) of row `p` of the two feature arrays: an
  output row depends on its own input rows only, which is why a block of rows of the whole result is the result of that
  block of rows.
-/
import Idealize.ShloMosaic.Lib.ValueIdx
import Idealize.ShloMosaic.Lib.ValueLayout
import Idealize.ShloMosaic.Lib.Pipeline.Value
import proofs.«100990_j57071525429418_1_alg».proof.Proof.RowMath

noncomputable section

namespace Cert.NodeUpdate

open Idealize.ShloMosaic Idealize.ShloMosaic.ValueIdx

/-- Row `p` of an `[R, 512]` array. -/
def rowOf {R : ℕ} (x : (⟨2, ![R, 512]⟩ : Shape).Idx → EReal) (p : Fin R) : Fin 512 → EReal := fun k => x (ix2 p k)

/-- A `[512, 512]` array as a matrix. -/
def matOf (w : (⟨2, ![512, 512]⟩ : Shape).Idx → EReal) : Fin 512 → Fin 512 → EReal := fun k c => w (ix2 k c)

/-- A one-row `[1, 512]` array as a vector. -/
def vecOf (b : (⟨2, ![1, 512]⟩ : Shape).Idx → EReal) : Fin 512 → EReal := fun c => b (ix2 (0 : Fin 1) c)

/-- The update of every row of a block. -/
def blockFn {R : ℕ} (A N : (⟨2, ![R, 512]⟩ : Shape).Idx → EReal) (Wa Wb : (⟨2, ![512, 512]⟩ : Shape).Idx → EReal)
    (B1 : (⟨2, ![1, 512]⟩ : Shape).Idx → EReal) (W2 : (⟨2, ![512, 512]⟩ : Shape).Idx → EReal)
    (B2 G Bt : (⟨2, ![1, 512]⟩ : Shape).Idx → EReal) : (⟨2, ![R, 512]⟩ : Shape).Idx → EReal :=
  fun i => rowOut (rowOf A ⟨(i 0).val, idx2_lt0 i⟩) (rowOf N ⟨(i 0).val, idx2_lt0 i⟩) (matOf Wa) (matOf Wb) (vecOf B1)
    (matOf W2) (vecOf B2) (vecOf G) (vecOf Bt) ⟨(i 1).val, idx2_lt1 i⟩

theorem blockFn_apply {R : ℕ} (A N : (⟨2, ![R, 512]⟩ : Shape).Idx → EReal) (Wa Wb : (⟨2, ![512, 512]⟩ : Shape).Idx → EReal)
    (B1 : (⟨2, ![1, 512]⟩ : Shape).Idx → EReal) (W2 : (⟨2, ![512, 512]⟩ : Shape).Idx → EReal)
    (B2 G Bt : (⟨2, ![1, 512]⟩ : Shape).Idx → EReal) (p : Fin R) (q : Fin 512) :
    blockFn A N Wa Wb B1 W2 B2 G Bt (ix2 p q)
      = rowOut (rowOf A p) (rowOf N p) (matOf Wa) (matOf Wb) (vecOf B1) (matOf W2) (vecOf B2) (vecOf G) (vecOf Bt) q := rfl

/-- A block of rows of the update is the update of that block of rows: if `a`, `n` are rows `o, o + 1, …` of `A`, `N`
    and the weights are the same, then `blockFn a n …` at `y` is `blockFn A N …` at the index `o` rows further down. -/
theorem blockFn_rows {R M : ℕ} (o : ℕ) (A N : (⟨2, ![M, 512]⟩ : Shape).Idx → EReal) (a n : (⟨2, ![R, 512]⟩ : Shape).Idx → EReal)
    (wa wb Wa Wb : (⟨2, ![512, 512]⟩ : Shape).Idx → EReal) (b1 B1 : (⟨2, ![1, 512]⟩ : Shape).Idx → EReal)
    (w2 W2 : (⟨2, ![512, 512]⟩ : Shape).Idx → EReal) (b2 B2 g G bt Bt : (⟨2, ![1, 512]⟩ : Shape).Idx → EReal)
    (ha : ∀ (p : Fin R) (k : Fin 512) (h : o + p.val < M), a (ix2 p k) = A (ix2 (⟨o + p.val, h⟩ : Fin M) k))
    (hn : ∀ (p : Fin R) (k : Fin 512) (h : o + p.val < M), n (ix2 p k) = N (ix2 (⟨o + p.val, h⟩ : Fin M) k))
    (hwa : wa = Wa) (hwb : wb = Wb) (hb1 : b1 = B1) (hw2 : w2 = W2) (hb2 : b2 = B2) (hg : g = G) (hbt : bt = Bt)
    (y : (⟨2, ![R, 512]⟩ : Shape).Idx) (i : (⟨2, ![M, 512]⟩ : Shape).Idx)
    (h0 : (i 0).val = o + (y 0).val) (h1 : (i 1).val = (y 1).val) :
    blockFn a n wa wb b1 w2 b2 g bt y = blockFn A N Wa Wb B1 W2 B2 G Bt i := by
  subst hwa hwb hb1 hw2 hb2 hg hbt
  have hM : o + (y 0).val < M := h0 ▸ idx2_lt0 i
  have e0 : (⟨o + (y 0).val, hM⟩ : Fin M) = ⟨(i 0).val, idx2_lt0 i⟩ := Fin.ext h0.symm
  have ra : rowOf a ⟨(y 0).val, idx2_lt0 y⟩ = rowOf A ⟨(i 0).val, idx2_lt0 i⟩ :=
    funext fun k => (ha ⟨(y 0).val, idx2_lt0 y⟩ k hM).trans (congrArg (fun q => A (ix2 q k)) e0)
  have rn : rowOf n ⟨(y 0).val, idx2_lt0 y⟩ = rowOf N ⟨(i 0).val, idx2_lt0 i⟩ :=
    funext fun k => (hn ⟨(y 0).val, idx2_lt0 y⟩ k hM).trans (congrArg (fun q => N (ix2 q k)) e0)
  have e1 : (⟨(y 1).val, idx2_lt1 y⟩ : Fin 512) = ⟨(i 1).val, idx2_lt1 i⟩ := Fin.ext h1.symm
  show rowOut (rowOf a _) (rowOf n _) _ _ _ _ _ _ _ _ = rowOut (rowOf A _) (rowOf N _) _ _ _ _ _ _ _ _
  rw [ra, rn, e1]

/-! ## The same update from the weights as the caller holds them

The caller holds ONE `[1024, 512]` first-layer matrix, whose upper 512 rows multiply the aggregated edge features and
whose lower 512 rows multiply the node features, and holds the biases, scale and shift as plain `[512]` vectors. -/

/-- The upper half of a `[1024, 512]` matrix. -/
def upperOf (w : (⟨2, ![1024, 512]⟩ : Shape).Idx → EReal) : Fin 512 → Fin 512 → EReal :=
  fun k c => w (ix2 ⟨k.val, by have := k.isLt; omega⟩ c)

/-- The lower half of a `[1024, 512]` matrix. -/
def lowerOf (w : (⟨2, ![1024, 512]⟩ : Shape).Idx → EReal) : Fin 512 → Fin 512 → EReal :=
  fun k c => w (ix2 ⟨512 + k.val, by have := k.isLt; omega⟩ c)

/-- A `[512]` array as a vector. -/
def flatOf (b : (⟨1, ![512]⟩ : Shape).Idx → EReal) : Fin 512 → EReal := fun c => b (ix1 c)

/-- The update of every row, from the caller's weights. -/
def wholeFn {R : ℕ} (A N : (⟨2, ![R, 512]⟩ : Shape).Idx → EReal) (W1 : (⟨2, ![1024, 512]⟩ : Shape).Idx → EReal)
    (B1 : (⟨1, ![512]⟩ : Shape).Idx → EReal) (W2 : (⟨2, ![512, 512]⟩ : Shape).Idx → EReal)
    (B2 G Bt : (⟨1, ![512]⟩ : Shape).Idx → EReal) : (⟨2, ![R, 512]⟩ : Shape).Idx → EReal :=
  fun i => rowOut (rowOf A ⟨(i 0).val, idx2_lt0 i⟩) (rowOf N ⟨(i 0).val, idx2_lt0 i⟩) (upperOf W1) (lowerOf W1) (flatOf B1)
    (matOf W2) (flatOf B2) (flatOf G) (flatOf Bt) ⟨(i 1).val, idx2_lt1 i⟩

theorem wholeFn_apply {R : ℕ} (A N : (⟨2, ![R, 512]⟩ : Shape).Idx → EReal) (W1 : (⟨2, ![1024, 512]⟩ : Shape).Idx → EReal)
    (B1 : (⟨1, ![512]⟩ : Shape).Idx → EReal) (W2 : (⟨2, ![512, 512]⟩ : Shape).Idx → EReal)
    (B2 G Bt : (⟨1, ![512]⟩ : Shape).Idx → EReal) (p : Fin R) (q : Fin 512) :
    wholeFn A N W1 B1 W2 B2 G Bt (ix2 p q)
      = rowOut (rowOf A p) (rowOf N p) (upperOf W1) (lowerOf W1) (flatOf B1) (matOf W2) (flatOf B2) (flatOf G) (flatOf Bt) q := rfl

/-- The rows `0 … 511` cut out of the `[1024, 512]` matrix are its upper half. -/
theorem matOf_slice_upper (W : (⟨2, ![1024, 512]⟩ : Shape).Idx → EReal)
    (h : (⟨2, ![1024, 512]⟩ : Shape).Slices ![0, 0] ⟨2, ![512, 512]⟩) :
    matOf (extractStridedSlice ⟨2, ![512, 512]⟩ ![0, 0] W h) = upperOf W :=
  funext fun k => funext fun c => slice2_axis0_apply 0 W h k c ⟨k.val, by have := k.isLt; omega⟩ (Nat.zero_add _).symm

/-- The rows `512 … 1023` cut out of it are its lower half. -/
theorem matOf_slice_lower (W : (⟨2, ![1024, 512]⟩ : Shape).Idx → EReal)
    (h : (⟨2, ![1024, 512]⟩ : Shape).Slices ![512, 0] ⟨2, ![512, 512]⟩) :
    matOf (extractStridedSlice ⟨2, ![512, 512]⟩ ![512, 0] W h) = lowerOf W :=
  funext fun k => funext fun c => slice2_axis0_apply 512 W h k c ⟨512 + k.val, by have := k.isLt; omega⟩ rfl

/-- A `[512]` vector re-laid as one `[1, 512]` row is that vector. -/
theorem vecOf_row (b : (⟨1, ![512]⟩ : Shape).Idx → EReal) (h : (⟨1, ![512]⟩ : Shape).ShapeCasts ⟨2, ![1, 512]⟩) :
    vecOf (shapeCast ⟨2, ![1, 512]⟩ b h) = flatOf b :=
  funext fun c => shapeCast_a_1a_apply b h 0 c

end Cert.NodeUpdate

end
-- ==== Proof.Payload.lean ====
/-
  The kernel body's arithmetic, read at an index.

  At one grid point the body holds a block of 1000 rows of the two feature arrays and the whole weights. What it
  stores at `(p, c)` is the node update (`rowOut`) of row `p` of the two blocks, at column `c`:
  the two matrix products into the zero accumulator are sums over `k : Fin 512`, a one-row array broadcast down the rows
  reads its entry of the column, a lane sum with the zero accumulator kept as a column and broadcast back along the row
  reads the sum of the row, and a change of float format is the identity on the extended reals.
-/
import proofs.«100990_j57071525429418_1_alg».proof.Proof.Gen.KernelIdeal.Skeleton
import proofs.«100990_j57071525429418_1_alg».proof.Proof.LibPlainDot
import proofs.«100990_j57071525429418_1_alg».proof.Proof.LibRowOps
import proofs.«100990_j57071525429418_1_alg».proof.Proof.LibColumns
import proofs.«100990_j57071525429418_1_alg».proof.Proof.BlockFn
import Idealize.ShloMosaic.Lib.ValueLayout
import Idealize.ShloMosaic.Lib.Pipeline.Value
import Idealize.ShloMosaic.Lib.ValueIdx

noncomputable section

namespace Cert.NodeUpdate

open Idealize.ShloMosaic Idealize.ShloMosaic.ValueIdx Cert.KernelIdeal Cert.KernelIdeal.Gen

/-- A matrix product of a 1000-row block into the zero accumulator, at `(p, c)`: the sum over `k` of the products. -/
theorem dot_apply {φ₁ φ₂ : FTy} (l : FVec Ideal S1000x512 φ₁) (r : FVec Ideal S512x512 φ₂) (p : Fin 1000) (c : Fin 512) :
    matmul dot_S1000x512_S512x512_S1000x512_1_0_0_1_n_n none l r (constant S1000x512 .f32 0x00000000#32) (ix2 p c)
      = ∑ k : Fin 512, l (ix2 p k) * r (ix2 k c) :=
  (congrFun (Cert.LibPlainDot.matmul_zero_plain (M := 1000) (K := 512) (N := 512) none l r) (ix2 p c)).trans
    (Cert.LibPlainDot.rowsTimes_apply l r p c)

/-- A one-row array broadcast down the 1000 rows, at `(p, c)`: its entry of column `c`. -/
theorem bias_apply (b : FVec Ideal S1x512 .f32) (p : Fin 1000) (c : Fin 512) :
    broadcastTo S1000x512 (shapeCast S1x512 b shapeCasts_S1x512_S1x512) broadcasts_S1x512_S1000x512 (ix2 p c)
      = b (ix2 (0 : Fin 1) c) := by
  rw [shapeCast_self]
  exact broadcastTo_1b_ab_apply b broadcasts_S1x512_S1000x512 p c

/-- The mean of row `p`, kept as a column: the lane sum divided by the broadcast width. -/
theorem mean_apply (Y : FVec Ideal S1000x512 .f32) (p : Fin 1000) (u : Fin 1) :
    divf (shapeCast S1000x1 (multiReduction .add [1] S1000 Y 0x00000000#32 reduces_S1000x512_S1000 (.inl rfl) rfl) shapeCasts_S1000_S1000x1)
      (broadcast S1000x1 (Scalar.ofBits .f32 0x44000000#32)) (ix2 p u) = mean (rowOf Y p) := by
  rw [divf_apply, Cert.Columns.shapeCast_a_a1_apply]
  unfold mean
  congr 1
  exact Cert.RowOps.rowSumK Y reduces_S1000x512_S1000 (.inl rfl) rfl p

section Body

variable (x0 x1 : FVec Ideal S1000x512 .f32) (x2 x3 : FVec Ideal S512x512 .bf16) (x4 : FVec Ideal S1x512 .f32)
  (x5 : FVec Ideal S512x512 .bf16) (x6 x7 x8 : FVec Ideal S1x512 .f32)

/-- The first layer of the block, as the body computes it: two products into zero accumulators, added, plus the
    broadcast bias row. -/
def pre : FVec Ideal S1000x512 .f32 :=
  addf
    (addf
      (matmul dot_S1000x512_S512x512_S1000x512_1_0_0_1_n_n none
        (truncf .bf16 (shapeCast S1000x512 x0 shapeCasts_S1000x512_S1000x512) bitsLt_bf16_f32)
        (shapeCast S512x512 x2 shapeCasts_S512x512_S512x512) (constant S1000x512 .f32 0x00000000#32))
      (matmul dot_S1000x512_S512x512_S1000x512_1_0_0_1_n_n none (truncf .bf16 x1 bitsLt_bf16_f32)
        (shapeCast S512x512 x3 shapeCasts_S512x512_S512x512) (constant S1000x512 .f32 0x00000000#32)))
    (broadcastTo S1000x512 (shapeCast S1x512 x4 shapeCasts_S1x512_S1x512) broadcasts_S1x512_S1000x512)

theorem pre_apply (p : Fin 1000) (c : Fin 512) :
    pre x0 x1 x2 x3 x4 (ix2 p c) = hidden (rowOf x0 p) (rowOf x1 p) (matOf x2) (matOf x3) (vecOf x4) c := by
  unfold pre hidden
  rw [addf_apply, addf_apply, dot_apply, dot_apply, bias_apply]
  simp only [truncf_apply, shapeCast_self]
  rfl

/-- The second layer of the block, as the body computes it: the gated first layer times the second weight matrix,
    plus the broadcast bias row. -/
def second : FVec Ideal S1000x512 .f32 :=
  addf
    (matmul dot_S1000x512_S512x512_S1000x512_1_0_0_1_n_n none
      (truncf .bf16 (mulf (pre x0 x1 x2 x3 x4) (logistic (pre x0 x1 x2 x3 x4))) bitsLt_bf16_f32)
      (shapeCast S512x512 x5 shapeCasts_S512x512_S512x512) (constant S1000x512 .f32 0x00000000#32))
    (broadcastTo S1000x512 (shapeCast S1x512 x6 shapeCasts_S1x512_S1x512) broadcasts_S1x512_S1000x512)

theorem second_apply (p : Fin 1000) (c : Fin 512) :
    second x0 x1 x2 x3 x4 x5 x6 (ix2 p c)
      = secondRow (rowOf x0 p) (rowOf x1 p) (matOf x2) (matOf x3) (vecOf x4) (matOf x5) (vecOf x6) c := by
  unfold second secondRow linear
  rw [addf_apply, dot_apply, bias_apply]
  congr 1
  refine Finset.sum_congr rfl fun k _ => ?_
  rw [truncf_apply, mulf_apply, shapeCast_self]
  show pre x0 x1 x2 x3 x4 (ix2 p k) * Ideal.logistic (pre x0 x1 x2 x3 x4 (ix2 p k)) * _ = _
  rw [pre_apply]
  rfl

theorem second_row (p : Fin 1000) :
    rowOf (second x0 x1 x2 x3 x4 x5 x6) p
      = secondRow (rowOf x0 p) (rowOf x1 p) (matOf x2) (matOf x3) (vecOf x4) (matOf x5) (vecOf x6) :=
  funext fun k => second_apply x0 x1 x2 x3 x4 x5 x6 p k

/-- The centred second layer: the payload the body keeps for the variance and the output. -/
theorem pay2_eq :
    k0_pay2 (F := Ideal) x0 x1 x2 x3 x4 x5 x6
      = subf (second x0 x1 x2 x3 x4 x5 x6)
          (broadcastTo S1000x512
            (divf (shapeCast S1000x1 (multiReduction .add [1] S1000 (second x0 x1 x2 x3 x4 x5 x6) 0x00000000#32 reduces_S1000x512_S1000 (.inl rfl) rfl) shapeCasts_S1000_S1000x1)
              (broadcast S1000x1 (Scalar.ofBits .f32 0x44000000#32)))
            broadcasts_S1000x1_S1000x512) := rfl

theorem pay2_apply (p : Fin 1000) (c : Fin 512) :
    k0_pay2 (F := Ideal) x0 x1 x2 x3 x4 x5 x6 (ix2 p c)
      = centred (secondRow (rowOf x0 p) (rowOf x1 p) (matOf x2) (matOf x3) (vecOf x4) (matOf x5) (vecOf x6)) c := by
  rw [pay2_eq, subf_apply, Cert.Columns.broadcastTo_a1_ab_apply, mean_apply, second_row, second_apply]
  rfl

/-- The variance column. -/
theorem pay3_eq :
    k0_pay3 (F := Ideal) x0 x1 x2 x3 x4 x5 x6
      = divf (shapeCast S1000x1 (multiReduction .add [1] S1000 (mulf (k0_pay2 (F := Ideal) x0 x1 x2 x3 x4 x5 x6) (k0_pay2 (F := Ideal) x0 x1 x2 x3 x4 x5 x6)) 0x00000000#32 reduces_S1000x512_S1000 (.inl rfl) rfl) shapeCasts_S1000_S1000x1)
          (broadcast S1000x1 (Scalar.ofBits .f32 0x44000000#32)) := rfl

theorem pay3_apply (p : Fin 1000) (u : Fin 1) :
    k0_pay3 (F := Ideal) x0 x1 x2 x3 x4 x5 x6 (ix2 p u)
      = mean (fun k => centred (secondRow (rowOf x0 p) (rowOf x1 p) (matOf x2) (matOf x3) (vecOf x4) (matOf x5) (vecOf x6)) k
          * centred (secondRow (rowOf x0 p) (rowOf x1 p) (matOf x2) (matOf x3) (vecOf x4) (matOf x5) (vecOf x6)) k) := by
  rw [pay3_eq, mean_apply]
  congr 1
  funext k
  show mulf _ _ (ix2 p k) = _
  rw [mulf_apply, pay2_apply]

/-- The stored payload from the centred rows, the variance column and the offset: scale by the reciprocal root,
    by the broadcast scale row, add the shift row and the node's own features. -/
theorem pay1_apply (v2 : FVec Ideal S1000x512 .f32) (v31 : FVec Ideal S1000x512 .f32) (v36 : FVec Ideal S1000x1 .f32)
    (e : Ideal .f32) (v42 v46 : FVec Ideal S1x512 .f32) (p : Fin 1000) (c : Fin 512) :
    k0_pay1 (F := Ideal) v2 v31 v36 e v42 v46 (ix2 p c)
      = v31 (ix2 p c) * Ideal.rsqrt (v36 (ix2 p (0 : Fin 1)) + e) * v42 (ix2 (0 : Fin 1) c) + v46 (ix2 (0 : Fin 1) c) + v2 (ix2 p c) := by
  unfold k0_pay1
  rw [addf_apply, addf_apply, mulf_apply, mulf_apply, bias_apply, bias_apply, Cert.Columns.broadcastTo_a1_ab_apply]
  rfl

/-- What the body stores is the update of every row of its block. -/
theorem body_eq :
    k0_pay1 (F := Ideal) x1 (k0_pay2 (F := Ideal) x0 x1 x2 x3 x4 x5 x6) (k0_pay3 (F := Ideal) x0 x1 x2 x3 x4 x5 x6)
        (Scalar.ofBits .f32 0x3727C5AC#32) x7 x8
      = blockFn (R := 1000) x0 x1 x2 x3 x4 x5 x6 x7 x8 := by
  funext j
  obtain ⟨p, q, rfl⟩ : ∃ (p : Fin 1000) (q : Fin 512), j = ix2 p q := ⟨j 0, j 1, eq_ix2 j⟩
  rw [pay1_apply, pay2_apply, pay3_apply, blockFn_apply]
  rfl

end Body

end Cert.NodeUpdate

end
-- ==== Proof.KernelValue.lean ====
/-
  The kernel's result array after the run.

  The grid has 25 points; point `t` holds rows `1000·t … 1000·t + 999` of the aggregated edge features and of the node
  features, and the whole of every weight array (their block index is `(0, 0)` at every point). What point `t` writes
  back is the node update of its 1000 rows (the body's payload), and an output row depends on its own input rows only,
  so this is block `t` of ONE array: the node update of all 25000 rows. The 25 blocks cover the output (row `r` lies in
  block `r / 1000`), hence the output array after the run is that array.

  The arrays the region reads were written by host operations before it: the aggregated features by the scatter-add
  (kept as the array it is), the weight halves by slices of the first-layer matrix, the one-row biases, scale and shift
  by re-laying vectors; a change of float format is the identity. Read through them, the result is `wholeFn` of the
  program's arguments.
-/
import proofs.«100990_j57071525429418_1_alg».proof.Proof.Gen.KernelIdeal.Value
import proofs.«100990_j57071525429418_1_alg».proof.Proof.Payload
import Idealize.ShloMosaic.Lib.Pipeline.Value
import Idealize.ShloMosaic.Lib.StableHlo.Run

noncomputable section

namespace Cert.NodeUpdate.Kern

open Cert.KernelIdeal Cert.KernelIdeal.Gen Cert.KernelIdeal.Value Idealize.ShloMosaic Idealize.ShloMosaic.TcCoe
open Idealize.SL.Sem Idealize.ShloMosaic.ValueIdx Idealize.ShloMosaic.StableHlo Cert.NodeUpdate
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The node update of all 25000 rows, from the arrays as the region finds them. -/
def whole (c : Dev nD) : S25000x512.Idx → EReal :=
  blockFn (R := 25000) (V m c main_v2) (V m c main_arg1) (V m c main_v4) (V m c main_v6) (V m c main_v8) (V m c main_v7)
    (V m c main_v9) (V m c main_v10) (V m c main_v11)

/-- The printed index maps over the 25 points: the two feature windows and the output move to block row `t`, every
    weight window stays at block `(0, 0)`. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- A weight window's block is the whole array: window 2. -/
theorem blk2 (c : Dev nD) (t : Fin cfg0.N) : iblk m c 2 t = V m c main_v4 := by
  obtain ⟨-, -, -, -, -, -, e0, e1, -⟩ := idx_facts t
  funext y
  show V m c main_v4 (((cfg0.win 2).blk t).view.emb y) = V m c main_v4 y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

theorem blk3 (c : Dev nD) (t : Fin cfg0.N) : iblk m c 3 t = V m c main_v6 := by
  obtain ⟨-, -, -, -, -, -, -, -, e0, e1, -⟩ := idx_facts t
  funext y
  show V m c main_v6 (((cfg0.win 3).blk t).view.emb y) = V m c main_v6 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem blk4 (c : Dev nD) (t : Fin cfg0.N) : iblk m c 4 t = V m c main_v8 := by
  obtain ⟨-, -, -, -, -, -, -, -, -, -, e0, e1, -⟩ := idx_facts t
  funext y
  show V m c main_v8 (((cfg0.win 4).blk t).view.emb y) = V m c main_v8 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem blk5 (c : Dev nD) (t : Fin cfg0.N) : iblk m c 5 t = V m c main_v7 := by
  obtain ⟨-, -, -, -, -, -, -, -, -, -, -, -, e0, e1, -⟩ := idx_facts t
  funext y
  show V m c main_v7 (((cfg0.win 5).blk t).view.emb y) = V m c main_v7 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

theorem blk6 (c : Dev nD) (t : Fin cfg0.N) : iblk m c 6 t = V m c main_v9 := by
  obtain ⟨-, -, -, -, -, -, -, -, -, -, -, -, -, -, e0, e1, -⟩ := idx_facts t
  funext y
  show V m c main_v9 (((cfg0.win 6).blk t).view.emb y) = V m c main_v9 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

theorem blk7 (c : Dev nD) (t : Fin cfg0.N) : iblk m c 7 t = V m c main_v10 := by
  obtain ⟨-, -, -, -, -, -, -, -, -, -, -, -, -, -, -, -, e0, e1, -⟩ := idx_facts t
  funext y
  show V m c main_v10 (((cfg0.win 7).blk t).view.emb y) = V m c main_v10 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 512 + 1 * (y 1).val = (y 1).val; omega

theorem blk8 (c : Dev nD) (t : Fin cfg0.N) : iblk m c 8 t = V m c main_v11 := by
  obtain ⟨-, -, -, -, -, -, -, -, -, -, -, -, -, -, -, -, -, -, e0, e1⟩ := idx_facts t
  funext y
  show V m c main_v11 (((cfg0.win 8).blk t).view.emb y) = V m c main_v11 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 512 + 1 * (y 1).val = (y 1).val; omega

/-- A feature window's block at point `t` is rows `1000·t …` of its array: window 0. -/
theorem blk0 (c : Dev nD) (t : Fin cfg0.N) (p : Fin 1000) (k : Fin 512) (h : t.val * 1000 + p.val < 25000) :
    iblk m c 0 t (ix2 p k) = V m c main_v2 (ix2 (⟨t.val * 1000 + p.val, h⟩ : Fin 25000) k) := by
  obtain ⟨-, -, e0, e1, -⟩ := idx_facts t
  show V m c main_v2 (((cfg0.win 0).blk t).view.emb (ix2 p k)) = _
  refine congrArg _ (funext fun a => Fin.ext ?_)
  match a with
  | ⟨0, _⟩ => show win0_0.index t (0 : Fin 2) * 1000 + 1 * p.val = t.val * 1000 + p.val; omega
  | ⟨1, _⟩ => show win0_0.index t (1 : Fin 2) * 512 + 1 * k.val = k.val; omega

theorem blk1 (c : Dev nD) (t : Fin cfg0.N) (p : Fin 1000) (k : Fin 512) (h : t.val * 1000 + p.val < 25000) :
    iblk m c 1 t (ix2 p k) = V m c main_arg1 (ix2 (⟨t.val * 1000 + p.val, h⟩ : Fin 25000) k) := by
  obtain ⟨-, -, -, -, e0, e1, -⟩ := idx_facts t
  show V m c main_arg1 (((cfg0.win 1).blk t).view.emb (ix2 p k)) = _
  refine congrArg _ (funext fun a => Fin.ext ?_)
  match a with
  | ⟨0, _⟩ => show win0_1.index t (0 : Fin 2) * 1000 + 1 * p.val = t.val * 1000 + p.val; omega
  | ⟨1, _⟩ => show win0_1.index t (1 : Fin 2) * 512 + 1 * k.val = k.val; omega

/-- WHAT POINT `t` WRITES BACK is block `t` of the node update of all rows. -/
theorem flushed_eq (c : Dev nD) (t : Fin cfg0.N) :
    (dats m 0 c).flushed 9 t = ((cfg0.win 9).blk t).view.read (Elt Ideal) (whole m c) := by
  show (cfg0.win 9).cut (grid0.coords t) ((dats m 0 c).after 9 t) = _
  rw [after0_9]
  unfold out0_9
  rw [View.canon_unit_zero zeros]
  simp only [View.ld_unit_zero (S := S1000x512) zeros, View.ld_unit_zero (S := S512x512) zeros,
    View.ld_unit_zero (S := S1x512) zeros]
  refine (congrArg ((cfg0.win 9).cut (grid0.coords t))
    (body_eq (iblk m c 0 t) (iblk m c 1 t) (iblk m c 2 t) (iblk m c 3 t) (iblk m c 4 t) (iblk m c 5 t) (iblk m c 6 t)
      (iblk m c 7 t) (iblk m c 8 t))).trans ?_
  obtain ⟨e0, e1, -⟩ := idx_facts t
  funext j
  show blockFn (R := 1000) (iblk m c 0 t) (iblk m c 1 t) (iblk m c 2 t) (iblk m c 3 t) (iblk m c 4 t) (iblk m c 5 t)
      (iblk m c 6 t) (iblk m c 7 t) (iblk m c 8 t) j = whole m c (((cfg0.win 9).blk t).view.emb j)
  unfold whole
  refine blockFn_rows (R := 1000) (M := 25000) (t.val * 1000) (V m c main_v2) (V m c main_arg1) (iblk m c 0 t) (iblk m c 1 t)
    (iblk m c 2 t) (iblk m c 3 t) (V m c main_v4) (V m c main_v6) (iblk m c 4 t) (V m c main_v8)
    (iblk m c 5 t) (V m c main_v7) (iblk m c 6 t) (V m c main_v9) (iblk m c 7 t) (V m c main_v10) (iblk m c 8 t) (V m c main_v11)
    (blk0 m c t) (blk1 m c t) (blk2 m c t) (blk3 m c t) (blk4 m c t) (blk5 m c t) (blk6 m c t) (blk7 m c t) (blk8 m c t)
    j (((cfg0.win 9).blk t).view.emb j) ?_ ?_
  · show win0_9.index t (0 : Fin 2) * 1000 + 1 * (j 0).val = t.val * 1000 + (j 0).val; omega
  · show win0_9.index t (1 : Fin 2) * 512 + 1 * (j 1).val = (j 1).val; omega

/-- An index of the output array is in point `t`'s block iff each coordinate is in the block's range on its axis. -/
theorem mem_blk (t : Fin cfg0.N) (i : S25000x512.Idx) :
    i ∈ ((cfg0.win 9).blk t).view.set ↔ ∀ a : Fin 2, win0_9.index t a * S1000x512.size a ≤ (i a).val ∧ (i a).val < win0_9.index t a * S1000x512.size a + S1000x512.size a := by
  show i ∈ ((View.whole main_v12).slice (win0_9.rect t)).set ↔ _
  rw [View.set_slice_whole, Rect.mem_set_unit]
  exact Iff.rfl

/-- Every index of the output lies in some point's block: row `r` in block `r / 1000`. -/
theorem cover (i : S25000x512.Idx) :
    ∃ t : Fin cfg0.N, (cfg0.win 9).flush t = true ∧ i ∈ ((cfg0.win 9).blk t).view.set := by
  have hi0 : (i 0).val < 25000 := (i 0).isLt
  have hi1 : (i 1).val < 512 := (i 1).isLt
  have hN : grid0.N = 25 := N_0
  have ht : (i 0).val / 1000 < cfg0.N := by show _ < grid0.N; omega
  obtain ⟨e0, e1, -⟩ := idx_facts ⟨(i 0).val / 1000, ht⟩
  refine ⟨⟨(i 0).val / 1000, ht⟩, flush0_9 _, ?_⟩
  rw [mem_blk]
  intro a
  match a with
  | ⟨0, _⟩ =>
    show win0_9.index ⟨(i 0).val / 1000, ht⟩ (0 : Fin 2) * 1000 ≤ (i 0).val ∧ (i 0).val < win0_9.index ⟨(i 0).val / 1000, ht⟩ (0 : Fin 2) * 1000 + 1000
    rw [e0]
    show (i 0).val / 1000 * 1000 ≤ (i 0).val ∧ (i 0).val < (i 0).val / 1000 * 1000 + 1000
    omega
  | ⟨1, _⟩ =>
    show win0_9.index ⟨(i 0).val / 1000, ht⟩ (1 : Fin 2) * 512 ≤ (i 1).val ∧ (i 1).val < win0_9.index ⟨(i 0).val / 1000, ht⟩ (1 : Fin 2) * 512 + 512
    rw [e1]
    omega

/-- THE OUTPUT ARRAY after the run: the node update of all rows. -/
theorem final (c : Dev nD) : (dats m 0 c).arrAt 9 cfg0.N = whole m c :=
  (dats m 0 c).arrAt_eq_of_cover 9 (whole m c) (fun t _ => flushed_eq m c t) cover

/-! ## The arrays the host operations wrote before the region -/

theorem v2_eq (c : Dev nD) : (V m c main_v2 : S25000x512.Idx → EReal)
    = Host.scatterAdd scatter_S25000x512_S400000x1_S400000x512_1_0_0_1
        (broadcastInDim S25000x512 ![] bcast_S_S25000x512 (constant (F := Ideal) S_ .f32 0x00000000#32))
        (broadcastInDim S400000x1 ![0] bcast_S400000_S400000x1_0 (m ((c : Thread nD τ).loc main_arg2)))
        (m ((c : Thread nD τ).loc main_arg0)) := by
  dsimp only [Gen.V, Gen.hostOps0]; after_results <;> rfl

theorem v4_eq (c : Dev nD) : (V m c main_v4 : S512x512.Idx → EReal)
    = extractStridedSlice S512x512 ![0, 0] (m ((c : Thread nD τ).loc main_arg3)) slices_S1024x512_S512x512_0_0 := by
  dsimp only [Gen.V, Gen.hostOps0]; after_results <;> rfl

theorem v6_eq (c : Dev nD) : (V m c main_v6 : S512x512.Idx → EReal)
    = extractStridedSlice S512x512 ![512, 0] (m ((c : Thread nD τ).loc main_arg3)) slices_S1024x512_S512x512_512_0 := by
  dsimp only [Gen.V, Gen.hostOps0]; after_results <;> rfl

theorem v7_eq (c : Dev nD) : (V m c main_v7 : S512x512.Idx → EReal) = m ((c : Thread nD τ).loc main_arg5) := by
  dsimp only [Gen.V, Gen.hostOps0]; after_results <;> rfl

theorem v8_eq (c : Dev nD) : (V m c main_v8 : S1x512.Idx → EReal)
    = shapeCast S1x512 (m ((c : Thread nD τ).loc main_arg4)) shapeCasts_S512_S1x512 := by
  dsimp only [Gen.V, Gen.hostOps0]; after_results <;> rfl

theorem v9_eq (c : Dev nD) : (V m c main_v9 : S1x512.Idx → EReal)
    = shapeCast S1x512 (m ((c : Thread nD τ).loc main_arg6)) shapeCasts_S512_S1x512 := by
  dsimp only [Gen.V, Gen.hostOps0]; after_results <;> rfl

theorem v10_eq (c : Dev nD) : (V m c main_v10 : S1x512.Idx → EReal)
    = shapeCast S1x512 (m ((c : Thread nD τ).loc main_arg7)) shapeCasts_S512_S1x512 := by
  dsimp only [Gen.V, Gen.hostOps0]; after_results <;> rfl

theorem v11_eq (c : Dev nD) : (V m c main_v11 : S1x512.Idx → EReal)
    = shapeCast S1x512 (m ((c : Thread nD τ).loc main_arg8)) shapeCasts_S512_S1x512 := by
  dsimp only [Gen.V, Gen.hostOps0]; after_results <;> rfl

/-- The aggregated edge features the kernel's region reads: the scatter-add of the edge rows, as the array it is. -/
def agg (c : Dev nD) : S25000x512.Idx → EReal :=
  Host.scatterAdd scatter_S25000x512_S400000x1_S400000x512_1_0_0_1
    (broadcastInDim S25000x512 ![] bcast_S_S25000x512 (constant (F := Ideal) S_ .f32 0x00000000#32))
    (broadcastInDim S400000x1 ![0] bcast_S400000_S400000x1_0 (m ((c : Thread nD τ).loc main_arg2)))
    (m ((c : Thread nD τ).loc main_arg0))

/-- The node update of all rows, from the program's arguments. -/
theorem whole_eq (c : Dev nD) :
    whole m c = wholeFn (R := 25000) (agg m c) (m ((c : Thread nD τ).loc main_arg1)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) := by
  unfold whole agg
  rw [v2_eq, V_main_arg1, v4_eq, v6_eq, v7_eq, v8_eq, v9_eq, v10_eq, v11_eq]
  funext i
  show rowOut _ _ (matOf _) (matOf _) (vecOf _) _ (vecOf _) (vecOf _) (vecOf _) _ = rowOut _ _ _ _ _ _ _ _ _ _
  rw [matOf_slice_upper, matOf_slice_lower, vecOf_row, vecOf_row, vecOf_row, vecOf_row]

/-- The kernel's run: the output array ends at the node update of all rows, the arguments unchanged. -/
theorem run : θ_run defs (onTc (τ := τ) (main (F := Ideal))) ⟨m, fun _ => 0, ρ⟩ fun r => ∀ c : Dev nD,
      r.2.mem ((c : Thread nD τ).loc main_v12)
        = wholeFn (R := 25000) (agg m c) (m ((c : Thread nD τ).loc main_arg1)) (m ((c : Thread nD τ).loc main_arg3))
            (m ((c : Thread nD τ).loc main_arg4)) (m ((c : Thread nD τ).loc main_arg5)) (m ((c : Thread nD τ).loc main_arg6))
            (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (whole_eq m c)), (h c).2⟩)
    (run_blocks m ρ)

end Cert.NodeUpdate.Kern

end
-- ==== Proof.LibSigmoid.lean ====
/-
  The logistic function in its two spellings, on the extended reals.

  One program computes a gate as `1 / (1 + exp (-z))`, the other as `½ · tanh (½ · z) + ½`. On a real `z`, with
  `a = exp (z / 2) > 0`: `tanh (z / 2) = (a - a⁻¹) / (a + a⁻¹) = (a² - 1) / (a² + 1)`, so the second form is
  `a² / (a² + 1)`; and `exp (-z) = a⁻²`, so the first form is `1 / (1 + a⁻²) = a² / (a² + 1)` as well.
  At the two infinities both forms take the limits: at `+∞` the hyperbolic tangent is `1` and `exp (-∞) = 0`, so both
  are `1`; at `-∞` the hyperbolic tangent is `-1` and `1 + exp (+∞) = +∞`, whose reciprocal is `0`, so both are `0`.
  Hence the two forms are one function on all of `[-∞, +∞]`, with no finiteness assumed of `z`.

  The two float patterns involved denote `½` and `1`.
-/
import Idealize.ShloMosaic.PureOps.Ideal
import Idealize.ShloMosaic.PureOps.Ideal.Laws

noncomputable section

namespace Cert.LibSigmoid

open Idealize.ShloMosaic

/-- The pattern of `0.5` denotes the real `1/2`. -/
theorem half_val : Ideal.ofBits .f32 0x3F000000#32 = ((1 / 2 : ℝ) : EReal) := by
  simp [Ideal.ofBits, Ideal.ieee, -EReal.coe_mul]; norm_num

/-- The pattern of `1.0` denotes `1`. -/
theorem one_val : Ideal.ofBits .f32 0x3F800000#32 = 1 := by
  simp [Ideal.ofBits, Ideal.ieee, -EReal.coe_mul]; norm_num

/-- On the reals: `½ · tanh (½ · r) + ½ = 1 / (1 + exp (-r))`. -/
theorem real_forms (r : ℝ) : 1 / 2 * Real.tanh (1 / 2 * r) + 1 / 2 = 1 / (1 + Real.exp (-r)) := by
  have ha : 0 < Real.exp (1 / 2 * r) := Real.exp_pos _
  have hinv : Real.exp (-(1 / 2 * r)) = (Real.exp (1 / 2 * r))⁻¹ := Real.exp_neg _
  have hneg : Real.exp (-r) = (Real.exp (1 / 2 * r))⁻¹ * (Real.exp (1 / 2 * r))⁻¹ := by
    rw [← hinv, ← Real.exp_add]; congr 1; ring
  rw [Real.tanh_eq_sinh_div_cosh, Real.sinh_eq, Real.cosh_eq, hinv, hneg]
  generalize Real.exp (1 / 2 * r) = a at ha
  have h0 : a ≠ 0 := ne_of_gt ha
  have h1 : a * a + 1 ≠ 0 := by positivity
  field_simp
  ring

/-- On the extended reals the two spellings of the logistic function agree everywhere. -/
theorem forms (z : EReal) :
    ((1 / 2 : ℝ) : EReal) * Ideal.tanh (((1 / 2 : ℝ) : EReal) * z) + ((1 / 2 : ℝ) : EReal)
      = Ideal.div 1 (1 + Ideal.exp (-z)) := by
  induction z using EReal.rec with
  | bot =>
    have hb : ((1 / 2 : ℝ) : EReal) * ⊥ = ⊥ := EReal.coe_mul_bot_of_pos (by norm_num)
    rw [hb, Ideal.tanh_bot, EReal.neg_bot, Ideal.exp_top]
    have ht : (1 : EReal) + ⊤ = ⊤ := by
      rw [show (1 : EReal) = ((1 : ℝ) : EReal) from rfl]; exact EReal.coe_add_top 1
    rw [ht, Ideal.div, if_neg EReal.top_ne_zero, EReal.inv_top, mul_zero]
    have hm : (-1 : EReal) = ((-1 : ℝ) : EReal) := by rw [EReal.coe_neg, EReal.coe_one]
    rw [hm, ← EReal.coe_mul, ← EReal.coe_add]
    norm_num
  | top =>
    have hb : ((1 / 2 : ℝ) : EReal) * ⊤ = ⊤ := EReal.coe_mul_top_of_pos (by norm_num)
    rw [hb, Ideal.tanh_top, EReal.neg_top, Ideal.exp_bot, add_zero, mul_one]
    rw [Ideal.div, if_neg one_ne_zero, inv_one, mul_one, ← EReal.coe_add]
    norm_num
  | coe r =>
    have hy : (1 + Real.exp (-r)) ≠ 0 := by positivity
    rw [← EReal.coe_mul, Ideal.tanh_coe, ← EReal.coe_mul, ← EReal.coe_add, ← EReal.coe_neg, Ideal.exp_coe]
    rw [show (1 : EReal) = ((1 : ℝ) : EReal) from rfl, ← EReal.coe_add, Ideal.div_coe hy, ← EReal.coe_mul]
    rw [real_forms r, one_mul]

/-- The same with the float patterns of `½` and `1` as the programs spell them. -/
theorem forms_bits (z : EReal) :
    Ideal.ofBits .f32 0x3F000000#32 * Ideal.tanh (Ideal.ofBits .f32 0x3F000000#32 * z) + Ideal.ofBits .f32 0x3F000000#32
      = Ideal.div (Ideal.ofBits .f32 0x3F800000#32) (Ideal.ofBits .f32 0x3F800000#32 + Ideal.exp (-z)) := by
  rw [half_val, one_val]; exact forms z

end Cert.LibSigmoid

end
-- ==== Proof.RefValue.lean ====
/-
  The reference's result, read row by row.

  The reference joins the aggregated edge features and the node features into one `[25000, 1024]` array and contracts
  it with the whole `[1024, 512]` first-layer matrix. At `(r, c)` that contraction is a sum over `Fin 1024`; its first
  512 terms read the aggregated features of row `r` against the upper half of the matrix and its last 512 terms the
  node features against the lower half, so it is the two half contractions added (`sum_halves`: only commutativity
  and associativity of addition). The gate is spelt `x · (1 / (1 + exp (−x)))`, which is `x · logistic x` once the
  pattern of `1.0` is read as `1`. Each host sum starts from the pattern of zero, which is `0`. Everything else
  is the same operation the row function names, so the result at `(r, c)` is the node update of row `r` at column `c`.
  The aggregation itself (a scatter-add of the edge rows) is left as the array it is.
-/
import proofs.«100990_j57071525429418_1_alg».proof.Proof.Gen.ReferenceIdeal.Read
import proofs.«100990_j57071525429418_1_alg».proof.Proof.BlockFn
import proofs.«100990_j57071525429418_1_alg».proof.Proof.LibSigmoid
import Idealize.ShloMosaic.Lib.Pipeline.Value
import Idealize.ShloMosaic.Lib.ValueIdx

noncomputable section

namespace Cert.NodeUpdate.Ref

open Idealize.ShloMosaic Idealize.ShloMosaic.ValueIdx Cert.ReferenceIdeal Cert.ReferenceIdeal.Read Cert.NodeUpdate

/-! ## The composed index maps of the read lemmas, at indices built from coordinates -/

theorem ix_l4 (r : Fin 25000) (c : Fin 512) (k : Fin 1024) : lidx_main_v4 (ix2 r c) k = ix2 r k :=
  funext fun a => Fin.ext (by match a with | ⟨0, _⟩ => rfl | ⟨1, _⟩ => rfl)
theorem ix_r4 (r : Fin 25000) (c : Fin 512) (k : Fin 1024) : ridx_main_v4 (ix2 r c) k = ix2 k c :=
  funext fun a => Fin.ext (by match a with | ⟨0, _⟩ => rfl | ⟨1, _⟩ => rfl)
theorem ix_6 (r : Fin 25000) (c : Fin 512) : idx_main_v5 (idx_main_v6 (ix2 r c)) = ix1 c :=
  funext fun a => Fin.ext (by match a with | ⟨0, _⟩ => rfl)
theorem ix_l9 (r : Fin 25000) (c : Fin 512) (k : Fin 512) : lidx_main_v9 (ix2 r c) k = ix2 r k :=
  funext fun a => Fin.ext (by match a with | ⟨0, _⟩ => rfl | ⟨1, _⟩ => rfl)
theorem ix_r9 (r : Fin 25000) (c : Fin 512) (k : Fin 512) : ridx_main_v9 (ix2 r c) k = ix2 k c :=
  funext fun a => Fin.ext (by match a with | ⟨0, _⟩ => rfl | ⟨1, _⟩ => rfl)
theorem ix_11 (r : Fin 25000) (c : Fin 512) : idx_main_v10 (idx_main_v11 (ix2 r c)) = ix1 c :=
  funext fun a => Fin.ext (by match a with | ⟨0, _⟩ => rfl)
theorem ix_13 (r : Fin 25000) (u : Fin 1) (k : Fin 512) : idx_main_v13 (idx_main_v14 (ix2 r u)) k = ix2 r k :=
  funext fun a => Fin.ext (by match a with | ⟨0, _⟩ => rfl | ⟨1, _⟩ => rfl)
theorem ix_17 (r : Fin 25000) (c : Fin 512) : idx_main_v17 (ix2 r c) = ix2 r (0 : Fin 1) :=
  funext fun a => Fin.ext (by match a with | ⟨0, _⟩ => rfl | ⟨1, _⟩ => rfl)
theorem ix_20 (r : Fin 25000) (u : Fin 1) (k : Fin 512) : idx_main_v20 (idx_main_v21 (ix2 r u)) k = ix2 r k :=
  funext fun a => Fin.ext (by match a with | ⟨0, _⟩ => rfl | ⟨1, _⟩ => rfl)
theorem ix_27 (r : Fin 25000) (c : Fin 512) : idx_main_v27 (ix2 r c) = ix2 r (0 : Fin 1) :=
  funext fun a => Fin.ext (by match a with | ⟨0, _⟩ => rfl | ⟨1, _⟩ => rfl)
theorem ix_30 (r : Fin 25000) (c : Fin 512) : idx_main_v29 (idx_main_v30 (ix2 r c)) = ix1 c :=
  funext fun a => Fin.ext (by match a with | ⟨0, _⟩ => rfl)
theorem ix_33 (r : Fin 25000) (c : Fin 512) : idx_main_v32 (idx_main_v33 (ix2 r c)) = ix1 c :=
  funext fun a => Fin.ext (by match a with | ⟨0, _⟩ => rfl)

/-! ## The contraction over the joined rows -/

/-- The contraction of row `r` of `[A | N]` with a `[1024, 512]` matrix, at column `c`: `A`'s row against the upper
    half plus `N`'s row against the lower half. -/
theorem joined_dot (A N : S25000x512.Idx → EReal) (W : S1024x512.Idx → EReal)
    (h : Shape.Concatenates [S25000x512, S25000x512] S25000x1024 1) (r : Fin 25000) (c : Fin 512) :
    ∑ k : Fin 1024, concatenate S25000x1024 1 [⟨S25000x512, A⟩, ⟨S25000x512, N⟩] h (ix2 r k) * W (ix2 k c)
      = (∑ k : Fin 512, rowOf A r k * upperOf W k c) + ∑ k : Fin 512, rowOf N r k * lowerOf W k c := by
  rw [sum_halves]
  congr 1
  · refine Finset.sum_congr rfl fun k _ => congrArg (· * _) ?_
    exact concatenate_pair_apply_left 1 A N h _ rfl (ix2 r k)
      (fun b => by match b with | ⟨0, _⟩ => rfl | ⟨1, _⟩ => rfl)
  · refine Finset.sum_congr rfl fun k _ => congrArg (· * _) ?_
    exact concatenate_pair_apply_right 1 A N h _ rfl rfl (ix2 r k)
      (fun b hb => by
        match b, hb with
        | ⟨0, _⟩, _ => rfl
        | ⟨1, _⟩, hb => exact absurd (Fin.ext rfl) hb)
      (by show k.val + 512 = 512 + k.val; omega)

section Chain

variable (x0 : (⟨S400000x512, .f32⟩ : BufTy).Contents (Elt Ideal)) (x1 : (⟨S25000x512, .f32⟩ : BufTy).Contents (Elt Ideal))
  (x2 : (⟨S400000, .i32⟩ : BufTy).Contents (Elt Ideal)) (x3 : (⟨S1024x512, .f32⟩ : BufTy).Contents (Elt Ideal))
  (x4 : (⟨S512, .f32⟩ : BufTy).Contents (Elt Ideal)) (x5 : (⟨S512x512, .f32⟩ : BufTy).Contents (Elt Ideal))
  (x6 x7 x8 : (⟨S512, .f32⟩ : BufTy).Contents (Elt Ideal))

/-- The aggregated edge features: the scatter-add of the edge rows, as the array it is. -/
abbrev agg : S25000x512.Idx → EReal := val_main_v2 (F := Ideal) x0 x2

/-- The first layer at `(r, c)`. -/
theorem hidden_ref (r : Fin 25000) (c : Fin 512) :
    val_main_v7 (F := Ideal) x0 x1 x2 x3 x4 (ix2 r c)
      = hidden (rowOf (agg x0 x2) r) (rowOf x1 r) (upperOf x3) (lowerOf x3) (flatOf x4) c := by
  rw [val_main_v7_apply, val_main_v4_apply, val_main_v6_apply, val_main_v5_apply]
  simp only [ix_l4, ix_r4, ix_6]
  unfold val_main_v3
  rw [joined_dot]
  rfl

/-- The gated first layer at `(r, c)`. -/
theorem gate_ref (r : Fin 25000) (c : Fin 512) :
    val_main_v8 (F := Ideal) x0 x1 x2 x3 x4 (ix2 r c)
      = gate (hidden (rowOf (agg x0 x2) r) (rowOf x1 r) (upperOf x3) (lowerOf x3) (flatOf x4) c) := by
  rw [val_main_v8_apply, val_main_call0_v5_apply, val_main_call0_v4_apply, val_main_call0_cst_0_apply,
    val_main_call0_v3_apply, val_main_call0_v2_apply, val_main_call0_cst_apply, val_main_call0_v1_apply,
    val_main_call0_v0_apply, hidden_ref]
  generalize hidden (rowOf (agg x0 x2) r) (rowOf x1 r) (upperOf x3) (lowerOf x3) (flatOf x4) c = h
  show h * Ideal.div (Ideal.ofBits .f32 0x3F800000#32) (Ideal.ofBits .f32 0x3F800000#32 + Ideal.exp (-h)) = _
  rw [Cert.LibSigmoid.one_val]
  rfl

/-- The second layer at `(r, c)`. -/
theorem second_ref (r : Fin 25000) (c : Fin 512) :
    val_main_v12 (F := Ideal) x0 x1 x2 x3 x4 x5 x6 (ix2 r c)
      = secondRow (rowOf (agg x0 x2) r) (rowOf x1 r) (upperOf x3) (lowerOf x3) (flatOf x4) (matOf x5) (flatOf x6) c := by
  rw [val_main_v12_apply, val_main_v9_apply, val_main_v11_apply, val_main_v10_apply]
  simp only [ix_l9, ix_r9, ix_11, gate_ref]
  rfl

theorem second_row (r : Fin 25000) :
    rowOf (val_main_v12 (F := Ideal) x0 x1 x2 x3 x4 x5 x6) r
      = secondRow (rowOf (agg x0 x2) r) (rowOf x1 r) (upperOf x3) (lowerOf x3) (flatOf x4) (matOf x5) (flatOf x6) :=
  funext fun k => second_ref x0 x1 x2 x3 x4 x5 x6 r k

/-- The mean column at row `r`. -/
theorem mean_ref (r : Fin 25000) (u : Fin 1) :
    val_main_v16 (F := Ideal) x0 x1 x2 x3 x4 x5 x6 (ix2 r u)
      = mean (secondRow (rowOf (agg x0 x2) r) (rowOf x1 r) (upperOf x3) (lowerOf x3) (flatOf x4) (matOf x5) (flatOf x6)) := by
  rw [val_main_v16_apply, val_main_v14_apply, val_main_v13_apply, val_main_v15_apply, val_main_cst_1_apply,
    val_main_cst_0_apply]
  simp only [ix_13]
  rw [← second_row x0 x1 x2 x3 x4 x5 x6 r]
  show Ideal.div (Ideal.ofBits .f32 0x00000000#32 + _) _ = _
  rw [Ideal.ofBits_zero_f32, zero_add]
  rfl

/-- The centred second layer at `(r, c)`. -/
theorem centred_ref (r : Fin 25000) (c : Fin 512) :
    val_main_v18 (F := Ideal) x0 x1 x2 x3 x4 x5 x6 (ix2 r c)
      = centred (secondRow (rowOf (agg x0 x2) r) (rowOf x1 r) (upperOf x3) (lowerOf x3) (flatOf x4) (matOf x5) (flatOf x6)) c := by
  rw [val_main_v18_apply, val_main_v17_apply, ix_17, mean_ref, second_ref]
  rfl

/-- The variance column at row `r`. -/
theorem var_ref (r : Fin 25000) (u : Fin 1) :
    val_main_v23 (F := Ideal) x0 x1 x2 x3 x4 x5 x6 (ix2 r u)
      = mean (fun k => centred (secondRow (rowOf (agg x0 x2) r) (rowOf x1 r) (upperOf x3) (lowerOf x3) (flatOf x4) (matOf x5) (flatOf x6)) k
          * centred (secondRow (rowOf (agg x0 x2) r) (rowOf x1 r) (upperOf x3) (lowerOf x3) (flatOf x4) (matOf x5) (flatOf x6)) k) := by
  rw [val_main_v23_apply, val_main_v21_apply, val_main_v20_apply, val_main_v22_apply, val_main_cst_3_apply,
    val_main_cst_2_apply]
  simp only [ix_20, val_main_v19_apply, centred_ref]
  show Ideal.div (Ideal.ofBits .f32 0x00000000#32 + _) _ = _
  rw [Ideal.ofBits_zero_f32, zero_add]
  rfl

/-- The reference's result at `(r, c)`: the node update of row `r`. -/
theorem out_ref (r : Fin 25000) (c : Fin 512) :
    val_main_v35 (F := Ideal) x0 x1 x2 x3 x4 x5 x6 x7 x8 (ix2 r c)
      = wholeFn (R := 25000) (agg x0 x2) x1 x3 x4 x5 x6 x7 x8 (ix2 r c) := by
  rw [val_main_v35_apply, val_main_v34_apply, val_main_v31_apply, val_main_v28_apply, val_main_v27_apply, ix_27,
    val_main_v26_apply, val_main_v25_apply, val_main_v24_apply, val_main_cst_4_apply, var_ref, centred_ref,
    val_main_v30_apply, val_main_v29_apply, ix_30, val_main_v33_apply, val_main_v32_apply, ix_33, wholeFn_apply]
  rfl

/-- The reference's result array is the node update of every row. -/
theorem result_eq :
    val_main_v35 (F := Ideal) x0 x1 x2 x3 x4 x5 x6 x7 x8 = wholeFn (R := 25000) (agg x0 x2) x1 x3 x4 x5 x6 x7 x8 := by
  funext j
  obtain ⟨r, c, rfl⟩ : ∃ (r : Fin 25000) (c : Fin 512), j = ix2 r c := ⟨j 0, j 1, eq_ix2 j⟩
  exact out_ref x0 x1 x2 x3 x4 x5 x6 x7 x8 r c

end Chain

end Cert.NodeUpdate.Ref

end
-- ==== Proof.lean ====
/-
  A graph-network node update: the kernel against the reference, at the ideal values.

  Both programs first sum the edge-feature rows into their destination nodes (the same scatter-add, written once on
  each side), and then compute, for every node, from its aggregated row `a` and its own feature row `n`,

      h = [a | n] · W1 + b1,   s = h · logistic h,   y = s · W2 + b2,
      out = (y − mean y) · rsqrt (mean ((y − mean y)²) + ε) · γ + β + n.

  The reference forms the joined `[25000, 1024]` array and contracts it with the whole `[1024, 512]` matrix; the kernel
  works on 25 blocks of 1000 nodes, contracting `a` with the upper half of `W1` and `n` with the lower half and adding
  the two products. On the extended reals a sum over 1024 positions is the sum over its first 512 plus the sum over
  its last 512 (commutativity and associativity of addition only, so the infinities need no care), a change of float
  format is the identity, a matrix product into a zero accumulator and a host contraction are the same sum, a lane sum
  from the zero accumulator and a host sum from a zero initial value are the same sum, and `logistic x` IS
  `1 / (1 + exp (−x))`. An output row depends on its own two input rows only, so the kernel's 25 blocks are the blocks of
  one whole array, and that array is the reference's result. The precondition (finite inputs) is never opened: no step
  uses cancellation or distributivity.

  The modules: `RowMath` (one row's update as a function), `BlockFn` (the update of every row of a block, and the same
  from the weights as the caller holds them), `Payload` (the kernel body's arithmetic read at an index), `KernelValue`
  (the kernel's output array after the run), `RefValue` (the reference's result read row by row). The frames and the
  reference's run are the generated modules'; the idealization rewrote nothing, so `preserves` is `True`.
-/
import proofs.«100990_j57071525429418_1_alg».proof.Defs
import proofs.«100990_j57071525429418_1_alg».proof.Proof.Gen.Kernel
import proofs.«100990_j57071525429418_1_alg».proof.Proof.Gen.Kernel.Skeleton
import proofs.«100990_j57071525429418_1_alg».proof.Proof.Gen.Kernel.Launch
import proofs.«100990_j57071525429418_1_alg».proof.Proof.Gen.Kernel.Points
import proofs.«100990_j57071525429418_1_alg».proof.Proof.Gen.Kernel.Frame
import proofs.«100990_j57071525429418_1_alg».proof.Proof.Gen.KernelIdeal
import proofs.«100990_j57071525429418_1_alg».proof.Proof.Gen.KernelIdeal.Skeleton
import proofs.«100990_j57071525429418_1_alg».proof.Proof.Gen.KernelIdeal.Launch
import proofs.«100990_j57071525429418_1_alg».proof.Proof.Gen.KernelIdeal.Points
import proofs.«100990_j57071525429418_1_alg».proof.Proof.Gen.KernelIdeal.Frame
import proofs.«100990_j57071525429418_1_alg».proof.Proof.Gen.ReferenceIdeal
import proofs.«100990_j57071525429418_1_alg».proof.Proof.Gen.KernelIdeal.Value
import proofs.«100990_j57071525429418_1_alg».proof.Proof.Gen.ReferenceIdeal.Run
import proofs.«100990_j57071525429418_1_alg».proof.Proof.Gen.ReferenceIdeal.Read
import proofs.«100990_j57071525429418_1_alg».proof.Proof.Gen.Pre_finite_inputs
import proofs.«100990_j57071525429418_1_alg».proof.Proof.KernelValue
import proofs.«100990_j57071525429418_1_alg».proof.Proof.RefValue
import Idealize.ShloMosaic.Adequacy
import Idealize.ShloMosaic.Init

noncomputable section

namespace Cert.Proof

open Idealize.ShloMosaic Idealize.ShloMosaic.TcCoe Idealize.SL.Sem Cert.NodeUpdate

/-- The two programs' aggregated edge features are one array of the arguments: the same scatter-add of the edge rows
    into a zero array, at the same destination column. -/
theorem agg_eq (m : (ℓ : Loc Cert.KernelIdeal.nD Cert.KernelIdeal.τ Cert.KernelIdeal.sig) → Buf (Elt Ideal) ℓ)
    (c : Dev Cert.KernelIdeal.nD) :
    Cert.NodeUpdate.Ref.agg (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
      = Cert.NodeUpdate.Kern.agg m c := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the edge features returned unchanged and the node array at the node update of every row, of
    arguments that agree. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => wholeFn (R := 25000) (Cert.NodeUpdate.Kern.agg m c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono (fun r h c => ⟨(h c).2.1, (h c).1, (h c).2⟩)
      (Cert.NodeUpdate.Kern.run m ρ)
  · refine (θ_run Cert.ReferenceIdeal.defs _ _).mono
      (fun r h c => ⟨(h c).1.trans (hagree c).1, (h c).2.1.trans ?_, (h c).2.2⟩)
      (Cert.ReferenceIdeal.Value.run (F := Ideal) m' ρ')
    obtain ⟨a0, a1, a2, a3, a4, a5, a6, a7, a8⟩ := hagree c
    rw [Cert.ReferenceIdeal.Read.val_main_v35_eq, Cert.NodeUpdate.Ref.result_eq, a0, a1, a2, a3, a4, a5, a6, a7, a8,
      agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
